-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x32x128 : Shape := ⟨3, ![4096, 32, 128]⟩
abbrev S4096x32 : Shape := ⟨2, ![4096, 32]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096x32 .f32) (main_arg6 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x32x128 32) (main_arg2 : FVec F S4096x32 .f32) (main_arg3 : FVec F S32x4096 .f32) (main_arg4 : FVec F S4096x32 .f32) (main_arg5 : FVec F S4096x32 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x32 .f32 := Host.absf main_arg4
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg5 main_arg6 main_v13 main_v16
-- ==== Kernel.lean ====
abbrev S4x2048x4096 : Shape := ⟨3, ![4, 2048, 4096]⟩
abbrev S4096x32x128 : Shape := ⟨3, ![4096, 32, 128]⟩
abbrev S4096x32 : Shape := ⟨2, ![4096, 32]⟩
abbrev S32x4096 : Shape := ⟨2, ![32, 4096]⟩
abbrev S4096 : Shape := ⟨1, ![4096]⟩
abbrev S256x32x128 : Shape := ⟨3, ![256, 32, 128]⟩
abbrev S256x32 : Shape := ⟨2, ![256, 32]⟩
abbrev S256x32x1 : Shape := ⟨3, ![256, 32, 1]⟩
abbrev S4096x4096 : Shape := ⟨2, ![4096, 4096]⟩
abbrev S8192x4096 : Shape := ⟨2, ![8192, 4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S1024x32 : Shape := ⟨2, ![1024, 32]⟩
abbrev S256x1024 : Shape := ⟨2, ![256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x32x128, .i32⟩
  | .hbm, ⟨2, _⟩ => ⟨S4096x32, .f32⟩
  | .hbm, ⟨3, _⟩ => ⟨S32x4096, .f32⟩
  | .hbm, ⟨4, _⟩ => ⟨S4096x32, .f32⟩
  | .hbm, ⟨5, _⟩ => ⟨S4096x32, .f32⟩
  | .hbm, ⟨6, _⟩ => ⟨S4096, .f32⟩
  | .hbm, ⟨7, _⟩ => ⟨S4096x32x128, .bf16⟩
  | .hbm, ⟨8, _⟩ => ⟨S4096x4096, .bf16⟩
  | .hbm, ⟨9, _⟩ => ⟨S4096x32, .bf16⟩
  | .hbm, ⟨10, _⟩ => ⟨S32x4096, .bf16⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S256x32x128, .i32⟩
  | .local _ .vmem, ⟨1, _⟩ => ⟨S256x32x128, .i32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x32x128, .bf16⟩
  | .local _ .vmem, ⟨7, _⟩ => ⟨S256x32x128, .bf16⟩
  | .local _ .vmem, ⟨8, _⟩ => ⟨S256x4096, .f32⟩
  | .local _ .vmem, ⟨9, _⟩ => ⟨S256x4096, .f32⟩
  | .local _ .vmem, ⟨10, _⟩ => ⟨S1024x4096, .bf16⟩
  | .local _ .vmem, ⟨11, _⟩ => ⟨S1024x4096, .bf16⟩
  | .local _ .vmem, ⟨12, _⟩ => ⟨S1x1024, .f32⟩
  | .local _ .vmem, ⟨13, _⟩ => ⟨S1x1024, .f32⟩
  | .local _ .vmem, ⟨14, _⟩ => ⟨S32x4096, .bf16⟩
  | .local _ .vmem, ⟨15, _⟩ => ⟨S1024x32, .bf16⟩
  | .local _ .vmem, ⟨16, _⟩ => ⟨S1024x32, .bf16⟩
  | .local _ .vmem, ⟨17, _⟩ => ⟨S256x1024, .f32⟩
  | .local _ .vmem, ⟨18, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S256x32x128_S256x32x128_0_0_0 : ∀ a, (![0, 0, 0] : Fin 3 → Nat) a + S256x32x128.size a ≤ S256x32x128.size a
  h_S256x32x128 : 0 < S256x32x128.numel
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  bitsLt_bf16_f32 : FTy.bits .bf16 < FTy.bits .f32
  packedbf16_S256x32x128_S256x32x128_0_0_0 : (Rect.unit (s := S256x32x128) ![0, 0, 0] S256x32x128.size inb_S256x32x128_S256x32x128_0_0_0).PackedRows (EltTy.packing .bf16)
  shapeCasts_S4096x32x128_S4096x4096 : S4096x32x128.ShapeCasts S4096x4096
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x4096_S4x2048x4096 : S8192x4096.ShapeCasts S4x2048x4096
  dot_S256x4096_S1024x4096_S256x1024_1_1_0_0_n_n_wf : DotDims.WF S256x4096 S1024x4096 S256x1024 [1] [1] [0] [0] [] []
  dot_S256x4096_S32x4096_S256x32_1_1_0_0_n_n_wf : DotDims.WF S256x4096 S32x4096 S256x32 [1] [1] [0] [0] [] []
  dot_S256x32_S1024x32_S256x1024_1_1_0_0_n_n_wf : DotDims.WF S256x32 S1024x32 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S4096x32x128.size a
  hwx0_0 : ∀ i : grid0.Coords, EltTy.bits .i32 = 32 ∨ (Rect.block (s := S4096x32x128) S256x32x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32x128.size a ≤ S4096x32x128.size a
  hwx0_3 : ∀ i : grid0.Coords, EltTy.bits .bf16 = 32 ∨ (Rect.block (s := S4096x32x128) S256x32x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x4096.size a ≤ S32x4096.size a
  hwx1_3 : ∀ i : grid1.Coords, EltTy.bits .bf16 = 32 ∨ (Rect.block (s := S32x4096) S32x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x32.size a ≤ S4096x32.size a
  hwx1_4 : ∀ i : grid1.Coords, EltTy.bits .bf16 = 32 ∨ (Rect.block (s := S4096x32) S1024x32.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x4096.size a
  hwx1_5 : ∀ i : grid1.Coords, EltTy.bits .f32 = 32 ∨ (Rect.block (s := S8192x4096) S256x1024.size (cc1_transform_5 i) (hinb1_5 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x4096_S32x4096_S256x32_1_1_0_0_n_n : DotDims S256x4096 S32x4096 S256x32 where
  lhsContracting := [1]
  rhsContracting := [1]
  lhsNonContracting := [0]
  rhsNonContracting := [0]
  lhsBatch := []
  rhsBatch := []
  wf := dot_S256x4096_S32x4096_S256x32_1_1_0_0_n_n_wf
def dot_S256x32_S1024x32_S256x1024_1_1_0_0_n_n : DotDims S256x32 S1024x32 S256x1024 where
  lhsContracting := [1]
  rhsContracting := [1]
  lhsNonContracting := [0]
  rhsNonContracting := [0]
  lhsBatch := []
  rhsBatch := []
  wf := dot_S256x32_S1024x32_S256x1024_1_1_0_0_n_n_wf

abbrev win0_0 : Pipeline.Window sig grid0 :=
  Pipeline.Window.ofSpec (Memref.whole main_arg1) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x32x128 : Shape := ⟨3, ![4096, 32, 128]⟩
abbrev S4096x32 : Shape := ⟨2, ![4096, 32]⟩
abbrev S32x4096 : Shape := ⟨2, ![32, 4096]⟩
abbrev S4096 : Shape := ⟨1, ![4096]⟩
abbrev S4096x32x1 : Shape := ⟨3, ![4096, 32, 1]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x32x128, .i32⟩
  | .hbm, ⟨2, _⟩ => ⟨S4096x32, .f32⟩
  | .hbm, ⟨3, _⟩ => ⟨S32x4096, .f32⟩
  | .hbm, ⟨4, _⟩ => ⟨S4096x32, .f32⟩
  | .hbm, ⟨5, _⟩ => ⟨S4096x32, .f32⟩
  | .hbm, ⟨6, _⟩ => ⟨S4096, .f32⟩
  | .hbm, ⟨7, _⟩ => ⟨S4096x32x128, .f32⟩
  | .hbm, ⟨8, _⟩ => ⟨S4096x32x1, .f32⟩
  | .hbm, ⟨9, _⟩ => ⟨S4096x32x128, .f32⟩
  | .hbm, ⟨10, _⟩ => ⟨S4096x32x128, .f32⟩
  | .hbm, ⟨11, _⟩ => ⟨S4096x32x1, .f32⟩
  | .hbm, ⟨12, _⟩ => ⟨S4096x32x128, .f32⟩
  | .hbm, ⟨13, _⟩ => ⟨S4096x32x128, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The two programs' results as functions of the argument arrays over the extended reals, and the law that joins them.

  Shapes: x[4, 2048, 4096], codes q[4096, 32, 128] (integers), up[4096, 32], down[32, 4096], scale[4096, 32],
  zero[4096, 32], bias[4096]. The dequantized weight is W(o, g, j) = (q(o, g, j) − zero(o, g)) · scale(o, g), read
  flat as W(o, i) with i = 128·g + j.

  • kernel:     out(b, s, o) = (Σ_i x(b,s,i) · W(o,i)  +  Σ_k (Σ_i x(b,s,i) · down(k,i)) · up(o,k))  +  bias(o)
  • reference:  out(b, s, o) =  Σ_i x(b,s,i) · (W(o,i) + Σ_k up(o,k) · down(k,i))               +  bias(o)

  The two agree when every entry of x, up, down, scale and zero is a real number: then each side is a finite sum of
  products of reals, and the identity is distributivity plus an exchange of the two sums. (At an infinite entry
  distributivity fails on the extended reals, so finiteness is used, not decoration.)
-/
import Idealize.ShloMosaic.PureOps.Ideal
import Idealize.ShloMosaic.Lib.ValueIdx

noncomputable section

namespace Cert.Spec

open Idealize.ShloMosaic Idealize.ShloMosaic.ValueIdx

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: x·w + (x·dᵀ)·u = x·(w + u·d), entry by entry of a row. -/
theorem real_law {I K : Type*} [Fintype I] [Fintype K] (x w : I → ℝ) (u : K → ℝ) (d : K → I → ℝ) :
    ∑ i, x i * w i + ∑ k, (∑ i, x i * d k i) * u k = ∑ i, x i * (w i + ∑ k, u k * d k i) := by
  simp only [mul_add, Finset.sum_add_distrib, Finset.mul_sum, Finset.sum_mul]
  congr 1
  rw [Finset.sum_comm]
  exact Finset.sum_congr rfl fun i _ => Finset.sum_congr rfl fun k _ => by ring

/-- The same law on the extended reals, for families all of whose entries are real. -/
theorem ereal_law {I K : Type*} [Fintype I] [Fintype K] (x w : I → EReal) (u : K → EReal) (d : K → I → EReal)
    (hx : ∀ i, ∃ r : ℝ, x i = r) (hw : ∀ i, ∃ r : ℝ, w i = r) (hu : ∀ k, ∃ r : ℝ, u k = r)
    (hd : ∀ k i, ∃ r : ℝ, d k i = r) :
    ∑ i, x i * w i + ∑ k, (∑ i, x i * d k i) * u k = ∑ i, x i * (w i + ∑ k, u k * d k i) := by
  choose x' hx' using hx
  choose w' hw' using hw
  choose u' hu' using hu
  choose d' hd' using hd
  simp only [hx', hw', hu', hd', ← EReal.coe_mul, ← coe_sum, ← EReal.coe_add]
  exact congrArg _ (real_law x' w' u' d')

abbrev SX : Shape := ⟨3, ![4, 2048, 4096]⟩
abbrev SQ : Shape := ⟨3, ![4096, 32, 128]⟩
abbrev SU : Shape := ⟨2, ![4096, 32]⟩
abbrev SD : Shape := ⟨2, ![32, 4096]⟩
abbrev SB : Shape := ⟨1, ![4096]⟩

/-- The group of a flat input position: i / 128. -/
abbrev grp (i : Fin 4096) : Fin 32 := ⟨i.val / 128, by have := i.isLt; omega⟩
/-- The position inside its group: i % 128. -/
abbrev lane (i : Fin 4096) : Fin 128 := ⟨i.val % 128, Nat.mod_lt _ (by norm_num)⟩

/-- The dequantized weight W(o, g, j) = (q(o,g,j) − zero(o,g)) · scale(o,g). -/
def wd (q : SQ.Idx → BitVec 32) (sc zp : SU.Idx → EReal) (o : Fin 4096) (g : Fin 32) (j : Fin 128) : EReal :=
  ((((q (ix3 o g j)).toInt : ℝ) : EReal) - zp (ix2 o g)) * sc (ix2 o g)

/-- The kernel's result at (b, s, o). -/
def kerAt (x : SX.Idx → EReal) (q : SQ.Idx → BitVec 32) (up : SU.Idx → EReal) (dn : SD.Idx → EReal)
    (sc zp : SU.Idx → EReal) (bias : SB.Idx → EReal) (b : Fin 4) (s : Fin 2048) (o : Fin 4096) : EReal :=
  ((∑ i : Fin 4096, x (ix3 b s i) * wd q sc zp o (grp i) (lane i))
    + ∑ k : Fin 32, (∑ i : Fin 4096, x (ix3 b s i) * dn (ix2 k i)) * up (ix2 o k)) + bias (ix1 o)

/-- The reference's result at (b, s, o). -/
def refAt (x : SX.Idx → EReal) (q : SQ.Idx → BitVec 32) (up : SU.Idx → EReal) (dn : SD.Idx → EReal)
    (sc zp : SU.Idx → EReal) (bias : SB.Idx → EReal) (b : Fin 4) (s : Fin 2048) (o : Fin 4096) : EReal :=
  (∑ i : Fin 4096, x (ix3 b s i) * (wd q sc zp o (grp i) (lane i) + ∑ k : Fin 32, up (ix2 o k) * dn (ix2 k i)))
    + bias (ix1 o)

/-- The result array of either program, from its value at coordinates. -/
abbrev arr (f : Fin 4 → Fin 2048 → Fin 4096 → EReal) : SX.Idx → EReal := fun idx => f (idx 0) (idx 1) (idx 2)

/-- With x, up, down, scale and zero real-valued the kernel's result is the reference's. -/
theorem kerAt_eq_refAt (x : SX.Idx → EReal) (q : SQ.Idx → BitVec 32) (up : SU.Idx → EReal) (dn : SD.Idx → EReal)
    (sc zp : SU.Idx → EReal) (bias : SB.Idx → EReal)
    (hx : ∀ i, ∃ r : ℝ, x i = r) (hup : ∀ i, ∃ r : ℝ, up i = r) (hdn : ∀ i, ∃ r : ℝ, dn i = r)
    (hsc : ∀ i, ∃ r : ℝ, sc i = r) (hzp : ∀ i, ∃ r : ℝ, zp i = r) (b : Fin 4) (s : Fin 2048) (o : Fin 4096) :
    kerAt x q up dn sc zp bias b s o = refAt x q up dn sc zp bias b s o := by
  unfold kerAt refAt
  refine congrArg (· + bias (ix1 o)) ?_
  refine ereal_law (fun i => x (ix3 b s i)) (fun i => wd q sc zp o (grp i) (lane i)) (fun k => up (ix2 o k))
    (fun k i => dn (ix2 k i)) (fun i => hx _) (fun i => ?_) (fun k => hup _) (fun k i => hdn _)
  obtain ⟨z, hz⟩ := hzp (ix2 o (grp i))
  obtain ⟨c, hc⟩ := hsc (ix2 o (grp i))
  exact ⟨(((q (ix3 o (grp i) (lane i))).toInt : ℝ) - z) * c, by unfold wd; rw [hz, hc, ← EReal.coe_sub, ← EReal.coe_mul]⟩

end Cert.Spec

end
-- ==== Proof.KRun.lean ====
/-
  The kernel program's run with its RESULT array named. The program is two pallas_calls among stretches of host
  operations; the buffer contents at each boundary are a fold from the launch memory: after the first call its result
  array holds what the call's write-backs leave, the host operations between the calls apply to that, the second call's
  result array holds what ITS write-backs leave, and the last host operation (a reshape) applies to that. Every weakly
  fair execution terminates, nothing faulting, with the result buffer at the last stage of that fold and the seven
  argument arrays as launched.
-/
import proofs.«102286_j62268435857804_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's four segments, read at the end against the final memory: the result buffer holds the
    fold's last stage, each argument its launch contents. -/
theorem run_v7 : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.LibReshape.lean ====
/-
  Row-major reshapes and one broadcast read at an index given by coordinates.
  • A trailing unit axis added, [a, b] → [a, b, 1]: entry (p, q, u) of the result is entry (p, q) of the operand.
  • That unit axis broadcast, [a, b, 1] → [a, b, c]: entry (p, q, r) of the result is entry (p, q, 0) of the operand.
  • MERGING the two trailing axes, [a, b, c] → [a, d] with d = b · c: entry (o, i) of the result is entry
    (o, i / c, i % c) of the operand.
  • SPLITTING the leading axis, [n, c] → [a, b, c] with n = a · b: entry (p, q, k) of the result is entry
    (p · b + q, k) of the operand.
  The reshapes are the library's `shapeCast_apply` with the row-major positions written out, the broadcast its
  `broadcastTo_apply` axis by axis.
-/
import Idealize.ShloMosaic.Lib.Pipeline.Value
import Idealize.ShloMosaic.Lib.ValueIdx

namespace Idealize.ShloMosaic.ValueIdx

open Idealize.ShloMosaic

variable {α : Type}

/-- `[a, b]` viewed as `[a, b, 1]`: at `(p, q, u)` the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: at `(p, q, r)` the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` viewed as `[a, d]`, `d = b · c`: at `(o, i)` the operand at `(o, i / c, i % c)`. -/
theorem shapeCast_abc_ad_apply {a b c d : ℕ} (hd : d = b * c) (hc : 0 < c) (x : (⟨3, ![a, b, c]⟩ : Shape).Idx → α)
    (h : (⟨3, ![a, b, c]⟩ : Shape).ShapeCasts ⟨2, ![a, d]⟩) (o : Fin a) (i : Fin d) :
    shapeCast ⟨2, ![a, d]⟩ x h (ix2 o i)
      = x (ix3 o (⟨i.val / c, Nat.div_lt_of_lt_mul (lt_of_lt_of_eq i.isLt (hd.trans (Nat.mul_comm b c)))⟩ : Fin b)
          (⟨i.val % c, Nat.mod_lt _ hc⟩ : Fin c)) :=
  shapeCast_apply x h _ _ (by
    rw [Shape.rowMajor_val_three, Shape.rowMajor_val_two]
    show (o.val * b + i.val / c) * c + i.val % c = o.val * d + i.val
    rw [Nat.add_mul, Nat.add_assoc, Nat.div_add_mod' i.val c, Nat.mul_assoc, ← hd])

/-- `[n, c]` viewed as `[a, b, c]`, `n = a · b`: at `(p, q, k)` the operand at `(p · b + q, k)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k)
      = x (ix2 (⟨p.val * b + q.val, by
            rw [hn]
            calc p.val * b + q.val < p.val * b + b := Nat.add_lt_add_left q.isLt _
              _ = (p.val + 1) * b := by rw [Nat.add_mul, Nat.one_mul]
              _ ≤ a * b := Nat.mul_le_mul_right b p.isLt⟩ : Fin n) k) :=
  shapeCast_apply x h _ _ (by
    rw [Shape.rowMajor_val_three, Shape.rowMajor_val_two]
    rfl)

end Idealize.ShloMosaic.ValueIdx
-- ==== Proof.Region0.lean ====
/-
  The first pallas_call (the dequantizer) read as a value. Its grid has 16 points; point t stages rows
  256·t … 256·t + 255 of the codes q[4096, 32, 128], of scale[4096, 32] and of zero[4096, 32], and writes back rows
  256·t … 256·t + 255 of the result, each entry (q − zero) · scale with zero and scale constant along the last axis.
  So what point t writes back is block t of ONE whole-array function, the dequantized weight
  W(o, g, j) = (q(o, g, j) − zero(o, g)) · scale(o, g), and since the 16 row blocks cover all 4096 rows the result
  array after the call IS W.
-/
import proofs.«102286_j62268435857804_2_alg».proof.Proof.Gen.KernelIdeal.Frame
import proofs.«102286_j62268435857804_2_alg».proof.Proof.Spec
import proofs.«102286_j62268435857804_2_alg».proof.Proof.LibReshape
import Idealize.ShloMosaic.Lib.Pipeline.Value
import Idealize.ShloMosaic.Lib.ValueIdx

noncomputable section

namespace Cert.KernelIdeal.Dequant

open Cert.KernelIdeal Cert.KernelIdeal.Gen Idealize.ShloMosaic Idealize.ShloMosaic.TcCoe Idealize.SL.Sem
open Idealize.ShloMosaic.ValueIdx
open Idealize.ShloMosaic.Pipeline (Dat)

/-- The dequantized weight as an array over [4096, 32, 128]. -/
def W (q : S4096x32x128.Idx → BitVec 32) (sc zp : S4096x32.Idx → EReal) : S4096x32x128.Idx → EReal :=
  fun i => ((((q i).toInt : ℝ) : EReal) - zp (ix2 (i 0) (i 1) : S4096x32.Idx)) * sc (ix2 (i 0) (i 1) : S4096x32.Idx)

/-- At coordinates it is the specification's W(o, g, j). -/
theorem W_ix (q : S4096x32x128.Idx → BitVec 32) (sc zp : S4096x32.Idx → EReal) (o : Fin 4096) (g : Fin 32) (l : Fin 128) :
    W q sc zp (ix3 o g l) = Cert.Spec.wd q sc zp o g l := rfl

/-- The body's one stored value at (p, g, l) of its block: (code − zero) · scale, zero and scale read at (p, g). -/
theorem pay_ix (v0 : Vec Ideal S256x32x128 .i32) (v2 v3 : Vec Ideal S256x32 .f32) (p : Fin 256) (g : Fin 32) (l : Fin 128) :
    k0_pay1 (F := Ideal) v0 v2 v3 (ix3 p g l)
      = ((((v0 (ix3 p g l)).toInt : ℝ) : EReal) - v3 (ix2 p g)) * v2 (ix2 p g) := by
  unfold k0_pay1
  rw [truncf_apply, mulf_apply, subf_apply, sitofp_apply, broadcastTo_ab1_abc_apply, broadcastTo_ab1_abc_apply,
    shapeCast_ab_ab1_apply, shapeCast_ab_ab1_apply]
  rfl

/-- The same at any index of the block. -/
theorem pay_apply (v0 : Vec Ideal S256x32x128 .i32) (v2 v3 : Vec Ideal S256x32 .f32) (y : S256x32x128.Idx) :
    k0_pay1 (F := Ideal) v0 v2 v3 y
      = ((((v0 y).toInt : ℝ) : EReal) - v3 (ix2 (y 0) (y 1) : S256x32.Idx)) * v2 (ix2 (y 0) (y 1) : S256x32.Idx) := by
  obtain ⟨p, g, l, rfl⟩ : ∃ (p : Fin 256) (g : Fin 32) (l : Fin 128), y = ix3 p g l := ⟨y 0, y 1, y 2, eq_ix3 y⟩
  exact pay_ix v0 v2 v3 p g l

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The four windows move together: at point t each is at row block t, at block 0 along every other axis. -/
theorem idx_facts : ∀ t : Fin cfg0.N, win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the dequantized weight of the arrays as the call finds them. -/
theorem flushed_eq (c : Dev nD) (t : Fin cfg0.N) :
    (dat0 V c).flushed 3 t = ((cfg0.win 3).blk t).view.read (Elt Ideal) (W (V c main_arg1) (V c main_arg4) (V c main_arg5)) := by
  show (cfg0.win 3).cut (grid0.coords t) ((dat0 V c).after 3 t) = _
  rw [after0_3]
  unfold out0_3
  rw [View.canon_unit_zero hz3]
  simp only [View.ld_unit_zero (S := S256x32x128) hz3, View.ld_unit_zero (S := S256x32) hz2]
  obtain ⟨e0, e1, e2, e3, e4, e5, e6, e7, e8, e9⟩ := idx_facts t
  funext j
  refine (pay_apply _ _ _ j).trans ?_
  have h0 : ((cfg0.win 0).blk t).view.emb j = ((cfg0.win 3).blk t).view.emb j := by
    funext a; apply Fin.ext
    match a with
    | ⟨0, _⟩ => show win0_0.index t (0 : Fin 3) * 256 + 1 * (j 0).val = win0_3.index t (0 : Fin 3) * 256 + 1 * (j 0).val; omega
    | ⟨1, _⟩ => show win0_0.index t (1 : Fin 3) * 32 + 1 * (j 1).val = win0_3.index t (1 : Fin 3) * 32 + 1 * (j 1).val; omega
    | ⟨2, _⟩ => show win0_0.index t (2 : Fin 3) * 128 + 1 * (j 2).val = win0_3.index t (2 : Fin 3) * 128 + 1 * (j 2).val; omega
  have h1 : ((cfg0.win 1).blk t).view.emb (ix2 (j 0) (j 1) : S256x32.Idx)
      = (ix2 (((cfg0.win 3).blk t).view.emb j 0) (((cfg0.win 3).blk t).view.emb j 1) : S4096x32.Idx) := by
    funext a; apply Fin.ext
    match a with
    | ⟨0, _⟩ => show win0_1.index t (0 : Fin 2) * 256 + 1 * (j 0).val = win0_3.index t (0 : Fin 3) * 256 + 1 * (j 0).val; omega
    | ⟨1, _⟩ => show win0_1.index t (1 : Fin 2) * 32 + 1 * (j 1).val = win0_3.index t (1 : Fin 3) * 32 + 1 * (j 1).val; omega
  have h2 : ((cfg0.win 2).blk t).view.emb (ix2 (j 0) (j 1) : S256x32.Idx)
      = (ix2 (((cfg0.win 3).blk t).view.emb j 0) (((cfg0.win 3).blk t).view.emb j 1) : S4096x32.Idx) := by
    funext a; apply Fin.ext
    match a with
    | ⟨0, _⟩ => show win0_2.index t (0 : Fin 2) * 256 + 1 * (j 0).val = win0_3.index t (0 : Fin 3) * 256 + 1 * (j 0).val; omega
    | ⟨1, _⟩ => show win0_2.index t (1 : Fin 2) * 32 + 1 * (j 1).val = win0_3.index t (1 : Fin 3) * 32 + 1 * (j 1).val; omega
  show ((((V c main_arg1 (((cfg0.win 0).blk t).view.emb j)).toInt : ℝ) : EReal)
        - V c main_arg5 (((cfg0.win 2).blk t).view.emb (ix2 (j 0) (j 1) : S256x32.Idx)))
      * V c main_arg4 (((cfg0.win 1).blk t).view.emb (ix2 (j 0) (j 1) : S256x32.Idx))
    = ((((V c main_arg1 (((cfg0.win 3).blk t).view.emb j)).toInt : ℝ) : EReal)
        - V c main_arg5 (ix2 (((cfg0.win 3).blk t).view.emb j 0) (((cfg0.win 3).blk t).view.emb j 1) : S4096x32.Idx))
      * V c main_arg4 (ix2 (((cfg0.win 3).blk t).view.emb j 0) (((cfg0.win 3).blk t).view.emb j 1) : S4096x32.Idx)
  rw [h0, h1, h2]

/-- An index of the array is in point t's block iff each coordinate is in the block's range on its axis. -/
theorem mem_blk (t : Fin cfg0.N) (i : S4096x32x128.Idx) :
    i ∈ ((cfg0.win 3).blk t).view.set ↔ ∀ a : Fin 3, win0_3.index t a * S256x32x128.size a ≤ (i a).val ∧ (i a).val < win0_3.index t a * S256x32x128.size a + S256x32x128.size a := by
  show i ∈ ((View.whole main_v0).slice (win0_3.rect t)).set ↔ _
  rw [View.set_slice_whole, Rect.mem_set_unit]
  exact Iff.rfl

/-- Every row lies in the block of the point (row / 256). -/
theorem cover (i : S4096x32x128.Idx) : ∃ t : Fin cfg0.N, (cfg0.win 3).flush t = true ∧ i ∈ ((cfg0.win 3).blk t).view.set := by
  have hi0 : (i 0).val < 4096 := (i 0).isLt
  have hi1 : (i 1).val < 32 := (i 1).isLt
  have hi2 : (i 2).val < 128 := (i 2).isLt
  have hN : cfg0.N = 16 := N_0
  let t : Fin cfg0.N := ⟨(i 0).val / 256, by rw [hN]; omega⟩
  obtain ⟨e0, e1, e2, -⟩ := idx_facts t
  have ht : t.val = (i 0).val / 256 := rfl
  refine ⟨t, flush0_3 t, ?_⟩
  rw [mem_blk]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 32 ≤ (i 1).val ∧ (i 1).val < win0_3.index t (1 : Fin 3) * 32 + 32; omega
  | ⟨2, _⟩ => show win0_3.index t (2 : Fin 3) * 128 ≤ (i 2).val ∧ (i 2).val < win0_3.index t (2 : Fin 3) * 128 + 128; omega

/-- THE ARRAY after the first call: the dequantized weight of the arrays as the call finds them. -/
theorem final (c : Dev nD) :
    (dat0 V c).arrAt 3 cfg0.N = W (V c main_arg1) (V c main_arg4) (V c main_arg5) :=
  (dat0 V c).arrAt_eq_of_cover 3 _ (fun t _ => flushed_eq V c t) cover

end Cert.KernelIdeal.Dequant

end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.Region1.lean ====
/-
  The second pallas_call (the matrix product) read as a value. Its grid is 4 × 32 points; point (n, mi) stages rows
  256·mi … of x[8192, 4096], rows 1024·n … of the weight w[4096, 4096], columns 1024·n … of bias[1, 4096], the whole of
  down[32, 4096], rows 1024·n … of up[4096, 32], and writes back the [256, 1024] block (mi, n) of the result with entries
    (Σ_i x(r,i) · w(o,i)  +  Σ_k (Σ_i x(r,i) · down(k,i)) · up(o,k))  +  bias(0,o):
  three products contracting the last axis of both operands (a change of float format is the identity here).
  So what a point writes back is a block of ONE whole-array function Y of the five arrays, and since the 128 blocks
  cover [8192, 4096] the result array after the call IS Y.
-/
import proofs.«102286_j62268435857804_2_alg».proof.Proof.Gen.KernelIdeal.Frame
import proofs.«102286_j62268435857804_2_alg».proof.Proof.LibDotNT
import Idealize.ShloMosaic.Lib.Pipeline.Value
import Idealize.ShloMosaic.Lib.ValueIdx
import Idealize.ShloMosaic.Lib.ValueLayout

noncomputable section

namespace Cert.KernelIdeal.MatMul

open Cert.KernelIdeal Cert.KernelIdeal.Gen Idealize.ShloMosaic Idealize.ShloMosaic.TcCoe Idealize.SL.Sem
open Idealize.ShloMosaic.ValueIdx
open Idealize.ShloMosaic.Pipeline (Dat)

/-- The second call's result at (r, o). -/
def yAt (xf : S8192x4096.Idx → EReal) (w : S4096x4096.Idx → EReal) (b : S1x4096.Idx → EReal) (dn : S32x4096.Idx → EReal)
    (up : S4096x32.Idx → EReal) (r : Fin 8192) (o : Fin 4096) : EReal :=
  ((∑ i : Fin 4096, xf (ix2 r i) * w (ix2 o i))
    + ∑ k : Fin 32, (∑ i : Fin 4096, xf (ix2 r i) * dn (ix2 k i)) * up (ix2 o k)) + b (ix2 (0 : Fin 1) o)

/-- The second call's result as an array over [8192, 4096]. -/
def Y (xf : S8192x4096.Idx → EReal) (w : S4096x4096.Idx → EReal) (b : S1x4096.Idx → EReal) (dn : S32x4096.Idx → EReal)
    (up : S4096x32.Idx → EReal) : S8192x4096.Idx → EReal := fun i => yAt xf w b dn up (i 0) (i 1)

/-- The body's one stored value at (r, o) of its block. -/
theorem pay_ix (v0 : Vec Ideal S256x4096 .f32) (v3 : Vec Ideal S1024x4096 .bf16) (v6 : Vec Ideal S32x4096 .bf16)
    (v10 : Vec Ideal S1024x32 .bf16) (v14 : Vec Ideal S1x1024 .f32) (r : Fin 256) (o : Fin 1024) :
    k1_pay1 (F := Ideal) v0 v3 v6 v10 v14 (ix2 r o)
      = ((∑ i : Fin 4096, v0 (ix2 r i) * v3 (ix2 o i))
          + ∑ k : Fin 32, (∑ i : Fin 4096, v0 (ix2 r i) * v6 (ix2 k i)) * v10 (ix2 o k)) + v14 (ix2 (0 : Fin 1) o) := by
  unfold k1_pay1
  simp only [shapeCast_self]
  rw [addf_apply, addf_apply, broadcastTo_1b_ab_apply]
  unfold matmul
  rw [matmul_nt_zero_apply _ rfl rfl rfl rfl rfl rfl rfl rfl, matmul_nt_zero_apply _ rfl rfl rfl rfl rfl rfl rfl rfl]
  refine congrArg (· + v14 (ix2 (0 : Fin 1) o)) (congrArg₂ (· + ·) rfl (Finset.sum_congr rfl fun k _ => ?_))
  rw [truncf_apply, matmul_nt_zero_apply _ rfl rfl rfl rfl rfl rfl rfl rfl]
  rfl

/-- The same at any index of the block. -/
theorem pay_apply (v0 : Vec Ideal S256x4096 .f32) (v3 : Vec Ideal S1024x4096 .bf16) (v6 : Vec Ideal S32x4096 .bf16)
    (v10 : Vec Ideal S1024x32 .bf16) (v14 : Vec Ideal S1x1024 .f32) (y : S256x1024.Idx) :
    k1_pay1 (F := Ideal) v0 v3 v6 v10 v14 y
      = ((∑ i : Fin 4096, v0 (ix2 (y 0) i : S256x4096.Idx) * v3 (ix2 (y 1) i : S1024x4096.Idx))
          + ∑ k : Fin 32, (∑ i : Fin 4096, v0 (ix2 (y 0) i : S256x4096.Idx) * v6 (ix2 k i)) * v10 (ix2 (y 1) k : S1024x32.Idx))
        + v14 (ix2 (0 : Fin 1) (y 1) : S1x1024.Idx) := by
  obtain ⟨r, o, rfl⟩ : ∃ (r : Fin 256) (o : Fin 1024), y = ix2 r o := ⟨y 0, y 1, eq_ix2 y⟩
  exact pay_ix v0 v3 v6 v10 v14 r o

/-- The formula read through any five index families that name the entries (r, i), (o, i), (0, o), (k, i), (o, k). -/
theorem block_eq (xf : S8192x4096.Idx → EReal) (w : S4096x4096.Idx → EReal) (bb : S1x4096.Idx → EReal)
    (dn : S32x4096.Idx → EReal) (up : S4096x32.Idx → EReal)
    (E0 : Fin 4096 → S8192x4096.Idx) (E1 : Fin 4096 → S4096x4096.Idx) (E2 : S1x4096.Idx)
    (E3 : Fin 32 → Fin 4096 → S32x4096.Idx) (E4 : Fin 32 → S4096x32.Idx) (r : Fin 8192) (o : Fin 4096)
    (g0 : ∀ i, E0 i = ix2 r i) (g1 : ∀ i, E1 i = ix2 o i) (g2 : E2 = ix2 (0 : Fin 1) o)
    (g3 : ∀ k i, E3 k i = ix2 k i) (g4 : ∀ k, E4 k = ix2 o k) :
    ((∑ i : Fin 4096, xf (E0 i) * w (E1 i)) + ∑ k : Fin 32, (∑ i : Fin 4096, xf (E0 i) * dn (E3 k i)) * up (E4 k)) + bb E2
      = yAt xf w bb dn up r o := by
  unfold yAt
  simp only [g0, g1, g2, g3, g4]

variable (V : (c : Dev nD) → (b : Ref sig .tc) → Buf (Elt Ideal) ((c : Thread nD τ).loc b))

theorem hz2 : (![0, 0] : Fin 2 → Nat) = fun _ => 0 := funext fun a => by fin_cases a <;> rfl

/-- How the six windows move over the grid, relative to the output's block (row block, column block): x follows the
    row block, the weight, the bias and up follow the column block, down stays; the output's blocks stay in range. -/
theorem idx_facts : ∀ t : Fin cfg1.N, win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = 0 ∧ win1_2.index t (1 : Fin 2) = win1_5.index t (1 : Fin 2)
    ∧ win1_3.index t (0 : Fin 2) = 0 ∧ win1_3.index t (1 : Fin 2) = 0
    ∧ win1_4.index t (0 : Fin 2) = win1_5.index t (1 : Fin 2) ∧ win1_4.index t (1 : Fin 2) = 0
    ∧ win1_5.index t (0 : Fin 2) < 32 ∧ win1_5.index t (1 : Fin 2) < 4 :=
  (by decide +kernel : ∀ t : Fin grid1.N, _)

/-- Every (row block, column block) is some point's. -/
theorem idx_onto : ∀ (q0 : Fin 32) (q1 : Fin 4), ∃ t : Fin cfg1.N, win1_5.index t = ![q0.val, q1.val] :=
  (by decide +kernel : ∀ (q0 : Fin 32) (q1 : Fin 4), ∃ t : Fin grid1.N, win1_5.index t = ![q0.val, q1.val])

/-- WHAT A POINT WRITES BACK is its block of Y of the arrays as the call finds them. -/
theorem flushed_eq (c : Dev nD) (t : Fin cfg1.N) :
    (dat1 V c).flushed 5 t = ((cfg1.win 5).blk t).view.read (Elt Ideal)
      (Y (V c main_v4) (V c main_v1) (V c main_v5) (V c main_v3) (V c main_v2)) := by
  show (cfg1.win 5).cut (grid1.coords t) ((dat1 V c).after 5 t) = _
  rw [after1_5]
  unfold out1_5
  rw [View.canon_unit_zero hz2]
  simp only [View.ld_unit_zero (S := S256x4096) hz2, View.ld_unit_zero (S := S1024x4096) hz2,
    View.ld_unit_zero (S := S32x4096) hz2, View.ld_unit_zero (S := S1024x32) hz2, View.ld_unit_zero (S := S1x1024) hz2]
  obtain ⟨e0, e1, e2, e3, e4, e5, e6, e7, e8, e9, -, -⟩ := idx_facts t
  funext j
  refine (pay_apply _ _ _ _ _ j).trans ?_
  have g0 : ∀ i : Fin 4096, ((cfg1.win 0).blk t).view.emb (ix2 (j 0) i : S256x4096.Idx)
      = (ix2 (((cfg1.win 5).blk t).view.emb j 0) i : S8192x4096.Idx) := fun i => by
    funext a; apply Fin.ext
    match a with
    | ⟨0, _⟩ => show win1_0.index t (0 : Fin 2) * 256 + 1 * (j 0).val = win1_5.index t (0 : Fin 2) * 256 + 1 * (j 0).val; omega
    | ⟨1, _⟩ => show win1_0.index t (1 : Fin 2) * 4096 + 1 * i.val = i.val; omega
  have g1 : ∀ i : Fin 4096, ((cfg1.win 1).blk t).view.emb (ix2 (j 1) i : S1024x4096.Idx)
      = (ix2 (((cfg1.win 5).blk t).view.emb j 1) i : S4096x4096.Idx) := fun i => by
    funext a; apply Fin.ext
    match a with
    | ⟨0, _⟩ => show win1_1.index t (0 : Fin 2) * 1024 + 1 * (j 1).val = win1_5.index t (1 : Fin 2) * 1024 + 1 * (j 1).val; omega
    | ⟨1, _⟩ => show win1_1.index t (1 : Fin 2) * 4096 + 1 * i.val = i.val; omega
  have g2 : ((cfg1.win 2).blk t).view.emb (ix2 (0 : Fin 1) (j 1) : S1x1024.Idx)
      = (ix2 (0 : Fin 1) (((cfg1.win 5).blk t).view.emb j 1) : S1x4096.Idx) := by
    funext a; apply Fin.ext
    match a with
    | ⟨0, _⟩ => show win1_2.index t (0 : Fin 2) * 1 + 1 * 0 = 0; omega
    | ⟨1, _⟩ => show win1_2.index t (1 : Fin 2) * 1024 + 1 * (j 1).val = win1_5.index t (1 : Fin 2) * 1024 + 1 * (j 1).val; omega
  have g3 : ∀ (k : Fin 32) (i : Fin 4096), ((cfg1.win 3).blk t).view.emb (ix2 k i : S32x4096.Idx) = (ix2 k i : S32x4096.Idx) := fun k i => by
    funext a; apply Fin.ext
    match a with
    | ⟨0, _⟩ => show win1_3.index t (0 : Fin 2) * 32 + 1 * k.val = k.val; omega
    | ⟨1, _⟩ => show win1_3.index t (1 : Fin 2) * 4096 + 1 * i.val = i.val; omega
  have g4 : ∀ k : Fin 32, ((cfg1.win 4).blk t).view.emb (ix2 (j 1) k : S1024x32.Idx)
      = (ix2 (((cfg1.win 5).blk t).view.emb j 1) k : S4096x32.Idx) := fun k => by
    funext a; apply Fin.ext
    match a with
    | ⟨0, _⟩ => show win1_4.index t (0 : Fin 2) * 1024 + 1 * (j 1).val = win1_5.index t (1 : Fin 2) * 1024 + 1 * (j 1).val; omega
    | ⟨1, _⟩ => show win1_4.index t (1 : Fin 2) * 32 + 1 * k.val = k.val; omega
  exact block_eq (V c main_v4) (V c main_v1) (V c main_v5) (V c main_v3) (V c main_v2)
    (fun i => ((cfg1.win 0).blk t).view.emb (ix2 (j 0) i : S256x4096.Idx))
    (fun i => ((cfg1.win 1).blk t).view.emb (ix2 (j 1) i : S1024x4096.Idx))
    (((cfg1.win 2).blk t).view.emb (ix2 (0 : Fin 1) (j 1) : S1x1024.Idx))
    (fun k i => ((cfg1.win 3).blk t).view.emb (ix2 k i : S32x4096.Idx))
    (fun k => ((cfg1.win 4).blk t).view.emb (ix2 (j 1) k : S1024x32.Idx))
    (((cfg1.win 5).blk t).view.emb j 0) (((cfg1.win 5).blk t).view.emb j 1) g0 g1 g2 g3 g4

/-- An index of the array is in a point's block iff each coordinate is in the block's range on its axis. -/
theorem mem_blk (t : Fin cfg1.N) (i : S8192x4096.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v6).slice (win1_5.rect t)).set ↔ _
  rw [View.set_slice_whole, Rect.mem_set_unit]
  exact Iff.rfl

/-- Every entry lies in the block (row / 256, column / 1024) of some point. -/
theorem cover (i : S8192x4096.Idx) : ∃ t : Fin cfg1.N, (cfg1.win 5).flush t = true ∧ i ∈ ((cfg1.win 5).blk t).view.set := by
  have hi0 : (i 0).val < 8192 := (i 0).isLt
  have hi1 : (i 1).val < 4096 := (i 1).isLt
  obtain ⟨t, ht⟩ := idx_onto ⟨(i 0).val / 256, by omega⟩ ⟨(i 1).val / 1024, by omega⟩
  have q0 : win1_5.index t (0 : Fin 2) = (i 0).val / 256 := congrFun ht 0
  have q1 : win1_5.index t (1 : Fin 2) = (i 1).val / 1024 := congrFun ht 1
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- THE ARRAY after the second call: Y of the arrays as the call finds them. -/
theorem final (c : Dev nD) :
    (dat1 V c).arrAt 5 cfg1.N = Y (V c main_v4) (V c main_v1) (V c main_v5) (V c main_v3) (V c main_v2) :=
  (dat1 V c).arrAt_eq_of_cover 5 _ (fun t _ => flushed_eq V c t) (cover)

end Cert.KernelIdeal.MatMul

end
-- ==== Proof.Glue.lean ====
/-
  The kernel program's result as ONE function of the argument arrays.

  Between and around the two pallas_calls the program only re-lays arrays: x[4, 2048, 4096] is read as [8192, 4096]
  (row 2048·b + s), the dequantized weight W[4096, 32, 128] as [4096, 4096] (column 128·g + j), the bias [4096] as
  [1, 4096], up and down change float format (the identity on the extended reals), and the product's result
  [8192, 4096] is read back as [4, 2048, 4096]. Reading the second call's value Y through these re-layings at
  (b, s, o) gives the specification's kernel formula: row 2048·b + s of the flat x is row (b, s) of x, and column i
  of the flat weight is W at (i / 128, i % 128).
-/
import proofs.«102286_j62268435857804_2_alg».proof.Proof.Region0
import proofs.«102286_j62268435857804_2_alg».proof.Proof.Region1
import proofs.«102286_j62268435857804_2_alg».proof.Proof.Spec
import proofs.«102286_j62268435857804_2_alg».proof.Proof.LibReshape
import Idealize.ShloMosaic.Lib.ValueLayout

noncomputable section

namespace Cert.KernelIdeal.Glue

open Cert.KernelIdeal Idealize.ShloMosaic Idealize.ShloMosaic.ValueIdx

theorem glue (x : FVec Ideal S4x2048x4096 .f32) (q : S4096x32x128.Idx → BitVec 32) (up : FVec Ideal S4096x32 .f32)
    (dn : FVec Ideal S32x4096 .f32) (sc zp : FVec Ideal S4096x32 .f32) (bias : FVec Ideal S4096 .f32)
    (h1 : S4x2048x4096.ShapeCasts S8192x4096) (h2 : S4096x32x128.ShapeCasts S4096x4096) (h3 : S4096.ShapeCasts S1x4096)
    (h4 : S8192x4096.ShapeCasts S4x2048x4096) (hb : FTy.bf16.bits < FTy.f32.bits) :
    shapeCast S4x2048x4096
        (Cert.KernelIdeal.MatMul.Y (shapeCast S8192x4096 x h1) (shapeCast S4096x4096 (Cert.KernelIdeal.Dequant.W q sc zp) h2)
          (shapeCast S1x4096 bias h3) (truncf .bf16 dn hb) (truncf .bf16 up hb)) h4
      = Cert.Spec.arr (Cert.Spec.kerAt x q up dn sc zp bias) := by
  funext idx
  obtain ⟨b, s, o, rfl⟩ : ∃ (b : Fin 4) (s : Fin 2048) (o : Fin 4096), idx = ix3 b s o := ⟨idx 0, idx 1, idx 2, eq_ix3 idx⟩
  rw [shapeCast_nc_abc_apply (by norm_num : 8192 = 4 * 2048)]
  have hx : ∀ (R : Fin 8192) (hR : R.val = b.val * 2048 + s.val) (i : Fin 4096),
      shapeCast S8192x4096 x h1 (ix2 R i) = x (ix3 b s i) := fun R hR i =>
    shapeCast_apply x h1 _ _ (by
      rw [Shape.rowMajor_val_three, Shape.rowMajor_val_two]
      show (b.val * 2048 + s.val) * 4096 + i.val = R.val * 4096 + i.val
      rw [hR])
  have hw : ∀ i : Fin 4096, shapeCast S4096x4096 (Cert.KernelIdeal.Dequant.W q sc zp) h2 (ix2 o i)
      = Cert.Spec.wd q sc zp o (Cert.Spec.grp i) (Cert.Spec.lane i) := fun i => by
    rw [shapeCast_abc_ad_apply (by norm_num : 4096 = 32 * 128) (by norm_num), Cert.KernelIdeal.Dequant.W_ix]
  have hlt : b.val * 2048 + s.val < 8192 := by have := b.isLt; have := s.isLt; omega
  have hx' : ∀ i : Fin 4096, shapeCast S8192x4096 x h1 (ix2 (⟨b.val * 2048 + s.val, hlt⟩ : Fin 8192) i) = x (ix3 b s i) :=
    fun i => hx ⟨_, hlt⟩ rfl i
  show Cert.KernelIdeal.MatMul.yAt _ _ _ _ _ (⟨b.val * 2048 + s.val, hlt⟩ : Fin 8192) o = Cert.Spec.kerAt x q up dn sc zp bias b s o
  unfold Cert.KernelIdeal.MatMul.yAt Cert.Spec.kerAt
  simp only [hx', hw, truncf_apply, shapeCast_a_1a_apply]

end Cert.KernelIdeal.Glue

end
-- ==== Proof.KValue.lean ====
/-
  The kernel program's result buffer, read back through the fold of its segments to the launch memory.

  The last host operation reshapes the second call's result; that result is the second call's value Y of the arrays
  the call finds; of those, the flat x, the flat bias and the two reformatted low-rank factors are host operations on
  arguments no call writes, and the flat weight is the reshape of the FIRST call's result, which is the dequantized
  weight W of arguments as launched. Composed, the result buffer holds the specification's kernel formula of the
  seven argument arrays.
-/
import proofs.«102286_j62268435857804_2_alg».proof.Proof.KRun
import proofs.«102286_j62268435857804_2_alg».proof.Proof.Glue
import Idealize.ShloMosaic.Lib.StableHlo.Run

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The last stage: the reshape of the second call's result array. -/
theorem stage_v7 (c : Dev nD) : W4 m ρ c (Proc.devRef .tc main_v7)
    = shapeCast S4x2048x4096 (W3 m ρ c (Proc.devRef .tc main_v6)) shapeCasts_S8192x4096_S4x2048x4096 := by
  show StableHlo.after hostOps2 (W3 m ρ c) (Proc.devRef .tc main_v7) = _
  after_results
  rfl

/-- The flat x as the second call finds it. -/
theorem stage_v4 (c : Dev nD) : W2 m ρ c (Proc.devRef .tc main_v4)
    = shapeCast S8192x4096 (m ((c : Thread nD τ).loc main_arg0)) shapeCasts_S4x2048x4096_S8192x4096 := by
  show StableHlo.after hostOps1 (W1 m ρ c) (Proc.devRef .tc main_v4) = _
  after_results
  rw [W1_of_ne m ρ c main_arg0 (by decide)]
  rfl

/-- The flat bias as the second call finds it. -/
theorem stage_v5 (c : Dev nD) : W2 m ρ c (Proc.devRef .tc main_v5)
    = shapeCast S1x4096 (m ((c : Thread nD τ).loc main_arg6)) shapeCasts_S4096_S1x4096 := by
  show StableHlo.after hostOps1 (W1 m ρ c) (Proc.devRef .tc main_v5) = _
  after_results
  rw [W1_of_ne m ρ c main_arg6 (by decide)]
  rfl

/-- The reformatted down factor as the second call finds it. -/
theorem stage_v3 (c : Dev nD) : W2 m ρ c (Proc.devRef .tc main_v3)
    = (truncf (F := Ideal) (s := S32x4096) (φ := .f32) .bf16 (m ((c : Thread nD τ).loc main_arg3)) bitsLt_bf16_f32 : FVec Ideal S32x4096 .bf16) := by
  show StableHlo.after hostOps1 (W1 m ρ c) (Proc.devRef .tc main_v3) = _
  after_results
  rw [W1_of_ne m ρ c main_arg3 (by decide)]

/-- The reformatted up factor as the second call finds it. -/
theorem stage_v2 (c : Dev nD) : W2 m ρ c (Proc.devRef .tc main_v2)
    = (truncf (F := Ideal) (s := S4096x32) (φ := .f32) .bf16 (m ((c : Thread nD τ).loc main_arg2)) bitsLt_bf16_f32 : FVec Ideal S4096x32 .bf16) := by
  show StableHlo.after hostOps1 (W1 m ρ c) (Proc.devRef .tc main_v2) = _
  after_results
  rw [W1_of_ne m ρ c main_arg2 (by decide)]

/-- The flat weight as the second call finds it: the reshape of the first call's result, the dequantized weight. -/
theorem stage_v1 (c : Dev nD) : W2 m ρ c (Proc.devRef .tc main_v1)
    = shapeCast S4096x4096 (Cert.KernelIdeal.Dequant.W (m ((c : Thread nD τ).loc main_arg1)) (m ((c : Thread nD τ).loc main_arg4))
        (m ((c : Thread nD τ).loc main_arg5))) shapeCasts_S4096x32x128_S4096x4096 := by
  show StableHlo.after hostOps1 (W1 m ρ c) (Proc.devRef .tc main_v1) = _
  after_results
  rw [show W1 m ρ c (Proc.devRef .tc main_v0) = (dat0 (V0 m ρ) c).arrAt 3 cfg0.N from W1_arr m ρ c 3,
    Cert.KernelIdeal.Dequant.final (V0 m ρ) c]
  rfl

/-- THE RESULT BUFFER after the run: the kernel formula of the argument arrays. -/
theorem v7_eq (c : Dev nD) : W4 m ρ c (Proc.devRef .tc main_v7)
    = Cert.Spec.arr (Cert.Spec.kerAt (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) := by
  rw [stage_v7, show W3 m ρ c (Proc.devRef .tc main_v6) = (dat1 (V2 m ρ) c).arrAt 5 cfg1.N from W3_arr m ρ c 5,
    Cert.KernelIdeal.MatMul.final (V2 m ρ) c]
  rw [show V2 m ρ c main_v4 = _ from stage_v4 m ρ c, show V2 m ρ c main_v1 = _ from stage_v1 m ρ c,
    show V2 m ρ c main_v5 = _ from stage_v5 m ρ c, show V2 m ρ c main_v3 = _ from stage_v3 m ρ c,
    show V2 m ρ c main_v2 = _ from stage_v2 m ρ c]
  exact Cert.KernelIdeal.Glue.glue _ _ _ _ _ _ _ _ _ _ _ _

/-- The kernel program's run: the result buffer at the kernel formula, the arguments as launched. -/
theorem run : θ_run defs (onTc (τ := τ) (main (F := Ideal))) ⟨m, fun _ => 0, ρ⟩ (fun r => ∀ c : Dev nD,
      r.2.mem ((c.tc : Thread nD τ).loc main_v7)
        = Cert.Spec.arr (Cert.Spec.kerAt (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (v7_eq m ρ c), (h c).2⟩) (Cert.KernelIdeal.KRun.run_v7 m ρ)

end Cert.KernelIdeal.KValue

end
-- ==== Proof.RefValue.lean ====
/-
  The reference program's result, read entry by entry.

  The reference computes, for a row (b, s) of x and an output column o,

      out(b, s, o) = Σ_i x(b,s,i) · (W(o,i) + Σ_k up(o,k) · down(k,i)) + bias(o),

  where W(o, i) = (q(o, g, j) − zero(o, g)) · scale(o, g) is the dequantized weight at the flat position
  i = 128·g + j. The program builds W on the three-axis array [4096, 32, 128] (two broadcasts of zero and of scale
  along the last axis, a subtraction and a product), reshapes it to [4096, 4096], adds the low-rank product up·down,
  contracts x with the sum over the last axis, and adds the bias broadcast over the two leading axes. Read at one
  entry, each of these operations reads its operands at an index computed from the entry's coordinates; the only
  arithmetic is that of the reshape: the flat position o·4096 + i of the entry (o, i) splits as
  (o, i / 128, i % 128). Everything else is the definition of the operations on the extended reals.
-/
import proofs.«102286_j62268435857804_2_alg».proof.Proof.Gen.ReferenceIdeal.Read
import proofs.«102286_j62268435857804_2_alg».proof.Proof.Spec

noncomputable section

namespace Cert.ReferenceIdeal.RefValue

open Cert.ReferenceIdeal Cert.ReferenceIdeal.Read Idealize.ShloMosaic Idealize.ShloMosaic.ValueIdx

/-! ## The index functions at literal coordinates -/

/-- The contraction with x reads x at (b, s, i). -/
theorem lidx10 (b : Fin 4) (s : Fin 2048) (o i : Fin 4096) : lidx_main_v10 (ix3 b s o) i = ix3 b s i :=
  funext fun a => Fin.ext (by match a with | ⟨0, _⟩ => rfl | ⟨1, _⟩ => rfl | ⟨2, _⟩ => rfl)

/-- The contraction with x reads the weight at (o, i). -/
theorem ridx10 (b : Fin 4) (s : Fin 2048) (o i : Fin 4096) : ridx_main_v10 (ix3 b s o) i = ix2 o i :=
  funext fun a => Fin.ext (by match a with | ⟨0, _⟩ => rfl | ⟨1, _⟩ => rfl)

/-- The two broadcasts of the bias read it at o. -/
theorem idx11_12 (b : Fin 4) (s : Fin 2048) (o : Fin 4096) : idx_main_v11 (idx_main_v12 (ix3 b s o)) = ix1 o :=
  funext fun a => Fin.ext (by match a with | ⟨0, _⟩ => rfl)

/-- The reshape [4096, 32, 128] → [4096, 4096] reads the entry (o, i) at (o, i / 128, i % 128). -/
theorem idx7 (o i : Fin 4096) : idx_main_v7 (ix2 o i) = ix3 o (Cert.Spec.grp i) (Cert.Spec.lane i) :=
  funext fun a => Fin.ext (by
    have ho : o.val < 4096 := o.isLt
    have hi : i.val < 4096 := i.isLt
    match a with
    | ⟨0, _⟩ => show (o.val * 4096 + i.val) / 4096 = o.val; omega
    | ⟨1, _⟩ => show (o.val * 4096 + i.val) / 128 % 32 = i.val / 128; omega
    | ⟨2, _⟩ => show (o.val * 4096 + i.val) % 128 = i.val % 128; omega)

/-- The two broadcasts of the zero point along the last axis read it at (o, g). -/
theorem idx1_2 (o : Fin 4096) (g : Fin 32) (j : Fin 128) : idx_main_v1 (idx_main_v2 (ix3 o g j)) = ix2 o g :=
  funext fun a => Fin.ext (by match a with | ⟨0, _⟩ => rfl | ⟨1, _⟩ => rfl)

/-- The two broadcasts of the scale along the last axis read it at (o, g). -/
theorem idx4_5 (o : Fin 4096) (g : Fin 32) (j : Fin 128) : idx_main_v4 (idx_main_v5 (ix3 o g j)) = ix2 o g :=
  funext fun a => Fin.ext (by match a with | ⟨0, _⟩ => rfl | ⟨1, _⟩ => rfl)

/-- The low-rank product reads up at (o, k). -/
theorem lidx8 (o i : Fin 4096) (k : Fin 32) : lidx_main_v8 (ix2 o i) k = ix2 o k :=
  funext fun a => Fin.ext (by match a with | ⟨0, _⟩ => rfl | ⟨1, _⟩ => rfl)

/-- The low-rank product reads down at (k, i). -/
theorem ridx8 (o i : Fin 4096) (k : Fin 32) : ridx_main_v8 (ix2 o i) k = ix2 k i :=
  funext fun a => Fin.ext (by match a with | ⟨0, _⟩ => rfl | ⟨1, _⟩ => rfl)

/-! ## The stages at literal coordinates -/

/-- The dequantized weight on the three-axis array: (q − zero) · scale. -/
theorem v6_at (x1 : (⟨S4096x32x128, .i32⟩ : BufTy).Contents (Elt Ideal)) (x4 x5 : (⟨S4096x32, .f32⟩ : BufTy).Contents (Elt Ideal))
    (o : Fin 4096) (g : Fin 32) (j : Fin 128) :
    val_main_v6 (F := Ideal) x1 x4 x5 (ix3 o g j) = Cert.Spec.wd x1 x4 x5 o g j := by
  rw [val_main_v6_apply, val_main_v3_apply, val_main_v0_apply, val_main_v2_apply, val_main_v1_apply, val_main_v5_apply,
    val_main_v4_apply, idx1_2, idx4_5]
  rfl

/-- The full weight at (o, i): the dequantized weight at i's group and lane plus the low-rank product. -/
theorem v9_at (x1 : (⟨S4096x32x128, .i32⟩ : BufTy).Contents (Elt Ideal)) (x2 : (⟨S4096x32, .f32⟩ : BufTy).Contents (Elt Ideal))
    (x3 : (⟨S32x4096, .f32⟩ : BufTy).Contents (Elt Ideal)) (x4 x5 : (⟨S4096x32, .f32⟩ : BufTy).Contents (Elt Ideal)) (o i : Fin 4096) :
    val_main_v9 (F := Ideal) x1 x2 x3 x4 x5 (ix2 o i)
      = Cert.Spec.wd x1 x4 x5 o (Cert.Spec.grp i) (Cert.Spec.lane i) + ∑ k : Fin 32, x2 (ix2 o k) * x3 (ix2 k i) := by
  rw [val_main_v9_apply, val_main_v7_apply, idx7, v6_at, val_main_v8_apply]
  refine congrArg (Cert.Spec.wd x1 x4 x5 o (Cert.Spec.grp i) (Cert.Spec.lane i) + ·) ?_
  exact Finset.sum_congr rfl fun k _ => by rw [lidx8, ridx8]

/-- The reference's result is the array of `refAt`. -/
theorem ref_eq (x0 : (⟨S4x2048x4096, .f32⟩ : BufTy).Contents (Elt Ideal)) (x1 : (⟨S4096x32x128, .i32⟩ : BufTy).Contents (Elt Ideal))
    (x2 : (⟨S4096x32, .f32⟩ : BufTy).Contents (Elt Ideal)) (x3 : (⟨S32x4096, .f32⟩ : BufTy).Contents (Elt Ideal))
    (x4 x5 : (⟨S4096x32, .f32⟩ : BufTy).Contents (Elt Ideal)) (x6 : (⟨S4096, .f32⟩ : BufTy).Contents (Elt Ideal)) :
    Cert.ReferenceIdeal.Read.val_main_v13 (F := Ideal) x0 x1 x2 x3 x4 x5 x6
      = Cert.Spec.arr (Cert.Spec.refAt x0 x1 x2 x3 x4 x5 x6) := by
  funext idx
  obtain ⟨b, s, o, rfl⟩ : ∃ (b : Fin 4) (s : Fin 2048) (o : Fin 4096), idx = ix3 b s o := ⟨idx 0, idx 1, idx 2, eq_ix3 idx⟩
  rw [val_main_v13_apply, val_main_v10_apply, val_main_v12_apply, val_main_v11_apply, idx11_12]
  show (∑ i : Fin 4096, x0 (lidx_main_v10 (ix3 b s o) i) * val_main_v9 (F := Ideal) x1 x2 x3 x4 x5 (ridx_main_v10 (ix3 b s o) i))
      + x6 (ix1 o) = Cert.Spec.refAt x0 x1 x2 x3 x4 x5 x6 b s o
  unfold Cert.Spec.refAt
  refine congrArg (· + x6 (ix1 o)) ?_
  exact Finset.sum_congr rfl fun i _ => by rw [lidx10, ridx10, v9_at]

end Cert.ReferenceIdeal.RefValue

end
-- ==== Proof.Finite.lean ====
/-
  From the printed finiteness precondition to "every entry is a real number".

  The precondition is the conjunction, over the float arguments, of "every entry a of the array satisfies |a| < +∞",
  each written as a reduction by "and" of the array of comparisons and the conjunction as a chain of "and"s of one-bit
  words. On the extended reals |a| is max a (−a) and the comparison is the order's, so |a| < +∞ says that a is neither
  +∞ nor −∞ (the latter has |a| = +∞ too): a is a real number. Read back for x, up, down, scale and the zero point.
-/
import proofs.«102286_j62268435857804_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The f32 pattern with exponent all ones and significand zero is +∞. -/
theorem ofBits_inf : Ideal.ofBits .f32 0x7F800000#32 = ⊤ := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = r := by
  rw [ofBits_inf] at h
  induction x using EReal.rec with
  | bot => exact absurd h (by simp [Ideal.cmp])
  | coe r => exact ⟨r, rfl⟩
  | top => exact absurd h (by simp [Ideal.cmp])

theorem of_pre [Cert.Pre_finite_inputs.Facts] (a0 : FVec Ideal S4x2048x4096 .f32) (a1 : IVec S4096x32x128 32)
    (a2 : FVec Ideal S4096x32 .f32) (a3 : FVec Ideal S32x4096 .f32) (a4 a5 : FVec Ideal S4096x32 .f32)
    (a6 : FVec Ideal S4096 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h28 := congrFun h ix0
  dsimp only [fn, fn_part1] at h28
  obtain ⟨h23, _⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => real_of_abs_lt_inf (a0 i) (Host.reduce_andi_all _ _ _ _ ix0 h3 i),
    fun i => real_of_abs_lt_inf (a2 i) (Host.reduce_andi_all _ _ _ _ ix0 h7 i),
    fun i => real_of_abs_lt_inf (a3 i) (Host.reduce_andi_all _ _ _ _ ix0 h12 i),
    fun i => real_of_abs_lt_inf (a4 i) (Host.reduce_andi_all _ _ _ _ ix0 h17 i),
    fun i => real_of_abs_lt_inf (a5 i) (Host.reduce_andi_all _ _ _ _ ix0 h22 i)⟩

end Cert.Finite

end
-- ==== Proof.lean ====
/-
  The certificate: an int4 group-dequantized linear layer with a low-rank correction, kernel against reference, over
  the extended reals.

  The kernel dequantizes the weight in one pallas_call, W(o, g, j) = (q(o,g,j) − zero(o,g)) · scale(o,g), and in a
  second one computes  x · Wᵀ + (x · downᵀ) · upᵀ + bias  block by block; the reference adds the low-rank product to the
  weight first and contracts once,  x · (W + up · down)ᵀ + bias.  With every float input finite all entries are real
  numbers, and the two agree by distributivity and an exchange of two finite sums (Spec.lean). The kernel program's
  result buffer is read through its two calls and the re-laying host operations (Region0, Region1, Glue, KValue over
  the run of KRun); the reference's result through its generated run (RefValue); finiteness of the entries from the
  precondition (Finite). The three frames are the programs' runs with the results dropped; the idealization rewrote no
  operation, so there is nothing to preserve.
-/
import proofs.«102286_j62268435857804_2_alg».proof.Defs
import proofs.«102286_j62268435857804_2_alg».proof.Proof.Gen.Kernel
import proofs.«102286_j62268435857804_2_alg».proof.Proof.Gen.Kernel.Frame
import proofs.«102286_j62268435857804_2_alg».proof.Proof.Gen.KernelIdeal
import proofs.«102286_j62268435857804_2_alg».proof.Proof.Gen.KernelIdeal.Frame
import proofs.«102286_j62268435857804_2_alg».proof.Proof.Gen.ReferenceIdeal
import proofs.«102286_j62268435857804_2_alg».proof.Proof.Gen.ReferenceIdeal.Run
import proofs.«102286_j62268435857804_2_alg».proof.Proof.Gen.ReferenceIdeal.Read
import proofs.«102286_j62268435857804_2_alg».proof.Proof.Gen.Pre_finite_inputs
import proofs.«102286_j62268435857804_2_alg».proof.Proof.Spec
import proofs.«102286_j62268435857804_2_alg».proof.Proof.KValue
import proofs.«102286_j62268435857804_2_alg».proof.Proof.RefValue
import proofs.«102286_j62268435857804_2_alg».proof.Proof.Finite

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at one function of the arguments: the kernel's at its formula, the
    reference's at its own, and the two formulas agree on finite inputs. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq]
  obtain ⟨a0, a1, a2, a3, a4, a5, a6⟩ := hagree c
  rw [a0, a1, a2, a3, a4, a5, a6]
  obtain ⟨hx, hup, hdn, hsc, hzp⟩ := Cert.Finite.of_pre _ _ _ _ _ _ _ (hpre c)
  funext idx
  exact (Cert.Spec.kerAt_eq_refAt _ _ _ _ _ _ _ hx hup hdn hsc hzp (idx 0) (idx 1) (idx 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
